-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x2048x3 : Shape := ⟨3, ![1, 2048, 3]⟩
abbrev S1x3x4096 : Shape := ⟨3, ![1, 3, 4096]⟩
abbrev S1x4096 : Shape := ⟨2, ![1, 4096]⟩
abbrev S2048x3 : Shape := ⟨2, ![2048, 3]⟩
abbrev S3x4096 : Shape := ⟨2, ![3, 4096]⟩
abbrev S2048 : Shape := ⟨1, ![2048]⟩
abbrev S2048x1 : Shape := ⟨2, ![2048, 1]⟩
abbrev S4096 : Shape := ⟨1, ![4096]⟩
abbrev S2x4096 : Shape := ⟨2, ![2, 4096]⟩
abbrev S2048x7 : Shape := ⟨2, ![2048, 7]⟩
abbrev S7x4096 : Shape := ⟨2, ![7, 4096]⟩
abbrev S2048x4096 : Shape := ⟨2, ![2048, 4096]⟩
abbrev S64x4x8x4096 : Shape := ⟨4, ![64, 4, 8, 4096]⟩
abbrev S4x8x4096 : Shape := ⟨3, ![4, 8, 4096]⟩
abbrev S32x4096 : Shape := ⟨2, ![32, 4096]⟩
abbrev S1x2048x1 : Shape := ⟨3, ![1, 2048, 1]⟩
abbrev S1 : Shape := ⟨1, ![1]⟩
abbrev S1x1x1 : Shape := ⟨3, ![1, 1, 1]⟩
abbrev S1x1x4096 : Shape := ⟨3, ![1, 1, 4096]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S4x4096x3_S4x3x4096_0_2_1 : S4x4096x3.Transposes [0, 2, 1] S4x3x4096
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S2048x3_S2048 : S2048x3.Reduces [1] S2048
  shapeCasts_S2048_S2048x1 : S2048.ShapeCasts S2048x1
  reduces_S3x4096_S4096 : S3x4096.Reduces [0] S4096
  shapeCasts_S4096_S1x4096 : S4096.ShapeCasts S1x4096
  bitsLt_bf16_f32 : FTy.bits .bf16 < FTy.bits .f32
  concatenates_S2048x3_S2048x1_S2048x1_S2048x1_S2048x1_S2048x7_d1 : Shape.Concatenates [S2048x3, S2048x1, S2048x1, S2048x1, S2048x1] S2048x7 1
  concatenates_S3x4096_S1x4096_S1x4096_S2x4096_S7x4096_d0 : Shape.Concatenates [S3x4096, S1x4096, S1x4096, S2x4096] S7x4096 0
  reduces_S2048x4096_S2048 : S2048x4096.Reduces [1] S2048
  shapeCasts_S2048x4096_S64x4x8x4096 : S2048x4096.ShapeCasts S64x4x8x4096
  reduces_S64x4x8x4096_S4x8x4096 : S64x4x8x4096.Reduces [0] S4x8x4096
  shapeCasts_S4x8x4096_S32x4096 : S4x8x4096.ShapeCasts S32x4096
  reduces_S32x4096_S4096 : S32x4096.Reduces [0] S4096
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x4096_S1x1x4096 : S1x4096.ShapeCasts S1x1x4096
  reduces_S1x1x4096_S1 : S1x1x4096.Reduces [1, 2] S1
  shapeCasts_S1x1_S_ : S1x1.ShapeCasts S_
  dot_S2048x7_S7x4096_S2048x4096_1_0_0_1_n_n_wf : DotDims.WF S2048x7 S7x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x7_S7x4096_S2048x4096_1_0_0_1_n_n : DotDims S2048x7 S7x4096 S2048x4096 where
  lhsContracting := [1]
  rhsContracting := [0]
  lhsNonContracting := [0]
  rhsNonContracting := [1]
  lhsBatch := []
  rhsBatch := []
  wf := dot_S2048x7_S7x4096_S2048x4096_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.ChamferSpec.lean ====
import Idealize.ShloMosaic.PureOps.Ideal.Laws
import Idealize.ShloMosaic.Lib.ValueIdx

/-!
# The Chamfer loss of two batches of point clouds, in the two spellings the programs use

Four batches; each cloud has 4096 points of ℝ³ whose coordinates are extended reals.  The squared distance of
points `a` and `b` is written `|a|² + |b|² - 2 a·b`.  One spelling clamps every squared distance at zero, takes
the nearest neighbour in each direction, and averages the square roots; the other forms the squared distance as
ONE seven-term inner product of augmented vectors, takes the minima block by block, clamps after the minimum,
and accumulates all square roots into one total.
-/

noncomputable section

namespace Cert.Chamfer

open Idealize.ShloMosaic Idealize.ShloMosaic.ValueIdx

/-- A batch of four clouds of 4096 points with three coordinates. -/
abbrev Cloud : Type := (⟨3, ![4, 4096, 3]⟩ : Shape).Idx → EReal

/-! ## The float words the programs spell, as extended reals -/

theorem w_two : Ideal.ofBits .f32 0x40000000#32 = ((2 : ℝ) : EReal) := by
  simp [Ideal.ofBits, Ideal.ieee, -EReal.coe_mul]; norm_num
theorem w_negtwo : Ideal.ofBits .f32 0xC0000000#32 = ((-2 : ℝ) : EReal) := by
  simp [Ideal.ofBits, Ideal.ieee, -EReal.coe_mul]; norm_num
theorem w_one_bf16 : Ideal.ofBits .bf16 0x3F80#16 = ((1 : ℝ) : EReal) := by
  simp [Ideal.ofBits, Ideal.ieee, -EReal.coe_mul]; norm_num
theorem w_inf : Ideal.ofBits .f32 0x7F800000#32 = ⊤ := by
  simp [Ideal.ofBits, Ideal.ieee]
theorem w_16384 : Ideal.ofBits .f32 0x46800000#32 = ((16384 : ℝ) : EReal) := by
  simp [Ideal.ofBits, Ideal.ieee, -EReal.coe_mul]; norm_num
theorem w_32768 : Ideal.ofBits .f32 0x47000000#32 = ((32768 : ℝ) : EReal) := by
  simp [Ideal.ofBits, Ideal.ieee, -EReal.coe_mul]; norm_num

/-! ## The first spelling: clamp, nearest neighbour both ways, two means, their half -/

/-- `|a|²` of point `n` of batch `β`, summed from zero. -/
def sq (x : Cloud) (β : Fin 4) (n : Fin 4096) : EReal := 0 + ∑ k : Fin 3, x (ix3 β n k) * x (ix3 β n k)

/-- `a · b` for point `n` of the first cloud and point `m` of the second. -/
def dot (x y : Cloud) (β : Fin 4) (n m : Fin 4096) : EReal := ∑ k : Fin 3, x (ix3 β n k) * y (ix3 β m k)

/-- The squared distance `|a|² + |b|² - 2 a·b`, clamped at zero. -/
def dist (x y : Cloud) (β : Fin 4) (n m : Fin 4096) : EReal :=
  max (sq x β n + sq y β m - ((2 : ℝ) : EReal) * dot x y β n m) 0

/-- The nearest point of the second cloud to point `n` of the first. -/
def near1 (x y : Cloud) (β : Fin 4) (n : Fin 4096) : EReal := ⨅ m : Fin 4096, dist x y β n m

/-- The nearest point of the first cloud to point `m` of the second. -/
def near2 (x y : Cloud) (β : Fin 4) (m : Fin 4096) : EReal := ⨅ n : Fin 4096, dist x y β n m

/-- Half the sum of the two mean nearest-neighbour distances. -/
def refLoss (x y : Cloud) : EReal :=
  Ideal.div (Ideal.div (0 + ∑ β : Fin 4, ∑ n : Fin 4096, Ideal.sqrt (near1 x y β n)) ((16384 : ℝ) : EReal)
    + Ideal.div (0 + ∑ β : Fin 4, ∑ m : Fin 4096, Ideal.sqrt (near2 x y β m)) ((16384 : ℝ) : EReal)) ((2 : ℝ) : EReal)

/-! ## The second spelling: one inner product of augmented vectors, minima by blocks, one running total -/

/-- A point `a` augmented to `(-2a, 1, 1, |a|², |a|² - |a|²)`. -/
def augL (a : Fin 3 → EReal) : Fin 7 → EReal :=
  ![((-2 : ℝ) : EReal) * a 0, ((-2 : ℝ) : EReal) * a 1, ((-2 : ℝ) : EReal) * a 2, ((1 : ℝ) : EReal), ((1 : ℝ) : EReal),
    ∑ k : Fin 3, a k * a k, (∑ k : Fin 3, a k * a k) - ∑ k : Fin 3, a k * a k]

/-- A point `b` augmented to `(b, |b|², |b|² - |b|², 1, 1)`. -/
def augR (b : Fin 3 → EReal) : Fin 7 → EReal :=
  ![b 0, b 1, b 2, ∑ k : Fin 3, b k * b k, (∑ k : Fin 3, b k * b k) - ∑ k : Fin 3, b k * b k, ((1 : ℝ) : EReal), ((1 : ℝ) : EReal)]

/-- The inner product of the augmented vectors: the squared distance before the clamp. -/
def dk (a b : Fin 3 → EReal) : EReal := ∑ k : Fin 7, augL a k * augR b k

/-- Point `n` of batch `β` as a vector of three coordinates. -/
def pt (x : Cloud) (β : Fin 4) (n : Fin 4096) : Fin 3 → EReal := fun k => x (ix3 β n k)

/-- Row `p` of block `j` (two blocks of 2048 rows) is point `2048 j + p`. -/
def rowOf (j : Fin 2) (p : Fin 2048) : Fin 4096 := ⟨2048 * j.val + p.val, by omega⟩

/-- Block `j`'s sum over its rows of the root of the clamped row minimum. -/
def rowPart (x y : Cloud) (β : Fin 4) (j : Fin 2) : EReal :=
  ∑ p : Fin 2048, Ideal.sqrt (max (⨅ m : Fin 4096, dk (pt x β (rowOf j p)) (pt y β m)) 0)

/-- Block `j`'s column minimum at column `m`. -/
def colBlk (x y : Cloud) (β : Fin 4) (j : Fin 2) (m : Fin 4096) : EReal :=
  ⨅ p : Fin 2048, dk (pt x β (rowOf j p)) (pt y β m)

/-- The sum over the columns of the root of the clamped minimum of the two blocks' column minima. -/
def colPart (x y : Cloud) (β : Fin 4) : EReal :=
  ∑ m : Fin 4096, Ideal.sqrt (max (min (colBlk x y β 0 m) (colBlk x y β 1 m)) 0)

/-- What step `t` (batch `t / 2`, block `t % 2`) adds to the running total. -/
def contrib (x y : Cloud) (t : ℕ) : EReal :=
  if t % 2 = 0 then rowPart x y ⟨t / 2 % 4, Nat.mod_lt _ (by decide)⟩ 0
  else rowPart x y ⟨t / 2 % 4, Nat.mod_lt _ (by decide)⟩ 1 + colPart x y ⟨t / 2 % 4, Nat.mod_lt _ (by decide)⟩

/-- The running total after the eight steps. -/
def kerTotal (x y : Cloud) : EReal := ∑ t ∈ Finset.range 8, contrib x y t

/-- The total over `2 · 4 · 4096`. -/
def kerLoss (x y : Cloud) : EReal := Ideal.div (kerTotal x y) ((32768 : ℝ) : EReal)

end Cert.Chamfer

end
-- ==== Proof.ChamferLaws.lean ====
import proofs.«145149_g19164144075464_cont_8to1_1702_15_alg».proof.Proof.ChamferSpec

/-!
# The two spellings of the Chamfer loss agree on real-valued clouds

The seven-term inner product of the augmented vectors is the squared distance; clamping at zero commutes with
taking a minimum; a minimum or a sum over the 4096 rows splits over the two blocks of 2048 rows; and the three
divisions collapse to one because every summand is nonnegative.
-/

noncomputable section

namespace Cert.Chamfer

open Idealize.ShloMosaic Idealize.ShloMosaic.ValueIdx

/-! ## The squared distance before the clamp -/

/-- For real points the seven-term inner product is `|a|² + |b|² - 2 a·b`. -/
theorem dk_real (a b : Fin 3 → ℝ) :
    dk (fun k => ((a k : ℝ) : EReal)) (fun k => ((b k : ℝ) : EReal))
      = (0 + ∑ k : Fin 3, ((a k : ℝ) : EReal) * (a k : EReal)) + (0 + ∑ k : Fin 3, ((b k : ℝ) : EReal) * (b k : EReal))
        - ((2 : ℝ) : EReal) * ∑ k : Fin 3, ((a k : ℝ) : EReal) * (b k : EReal) := by
  simp only [dk, augL, augR, Fin.sum_univ_seven, Fin.sum_univ_three, Matrix.cons_val]
  simp only [← EReal.coe_mul, ← EReal.coe_add, ← EReal.coe_sub, ← EReal.coe_zero]
  congr 1
  ring

/-- The same for two points of real-valued clouds. -/
theorem dk_eq (x y : Cloud) (hx : ∀ i, ∃ r : ℝ, x i = (r : EReal)) (hy : ∀ i, ∃ r : ℝ, y i = (r : EReal))
    (β : Fin 4) (n m : Fin 4096) :
    dk (pt x β n) (pt y β m) = sq x β n + sq y β m - ((2 : ℝ) : EReal) * dot x y β n m := by
  choose rx hrx using hx
  choose ry hry using hy
  have h := dk_real (fun k => rx (ix3 β n k)) (fun k => ry (ix3 β m k))
  simp only [← hrx, ← hry] at h
  exact h

/-! ## Clamp and minimum; rows and blocks -/

/-- Clamping at zero commutes with the infimum. -/
theorem max_iInf_zero {ι : Type} (f : ι → EReal) : max (⨅ i, f i) 0 = ⨅ i, max (f i) 0 :=
  iInf_sup_eq f 0

/-- Every row is row `p` of block `0` or of block `1`. -/
theorem exists_rowOf (n : Fin 4096) : (∃ p, n = rowOf 0 p) ∨ (∃ p, n = rowOf 1 p) := by
  by_cases h : n.val < 2048
  · exact Or.inl ⟨⟨n.val, h⟩, Fin.ext (by simp [rowOf])⟩
  · exact Or.inr ⟨⟨n.val - 2048, by omega⟩, Fin.ext (by simp [rowOf]; omega)⟩

/-- The minimum over the rows is the minimum of the two blocks' minima. -/
theorem iInf_rows (f : Fin 4096 → EReal) :
    ⨅ n, f n = min (⨅ p : Fin 2048, f (rowOf 0 p)) (⨅ p : Fin 2048, f (rowOf 1 p)) := by
  apply le_antisymm
  · exact le_min (le_iInf fun p => iInf_le _ _) (le_iInf fun p => iInf_le _ _)
  · refine le_iInf fun n => ?_
    rcases exists_rowOf n with ⟨p, rfl⟩ | ⟨p, rfl⟩
    · exact (min_le_left _ _).trans (iInf_le _ p)
    · exact (min_le_right _ _).trans (iInf_le _ p)

/-- The sum over the rows is the sum of the two blocks' sums. -/
theorem sum_rows (f : Fin 4096 → EReal) :
    ∑ n, f n = ∑ p : Fin 2048, f (rowOf 0 p) + ∑ p : Fin 2048, f (rowOf 1 p) := by
  have h := Fin.sum_univ_add (a := 2048) (b := 2048) f
  have h0 : ∀ p : Fin 2048, Fin.castAdd 2048 p = rowOf 0 p := fun p => Fin.ext (by simp [rowOf])
  have h1 : ∀ p : Fin 2048, Fin.natAdd 2048 p = rowOf 1 p := fun p => Fin.ext (by simp [rowOf]; omega)
  simp only [h0, h1] at h
  exact h

/-! ## The running total, batch by batch -/

/-- The eight steps add, for each batch, the two blocks' row parts and the column part. -/
theorem kerTotal_eq (x y : Cloud) :
    kerTotal x y = ∑ β : Fin 4, (rowPart x y β 0 + rowPart x y β 1 + colPart x y β) := by
  have c0 : contrib x y 0 = rowPart x y 0 0 := rfl
  have c1 : contrib x y 1 = rowPart x y 0 1 + colPart x y 0 := rfl
  have c2 : contrib x y 2 = rowPart x y 1 0 := rfl
  have c3 : contrib x y 3 = rowPart x y 1 1 + colPart x y 1 := rfl
  have c4 : contrib x y 4 = rowPart x y 2 0 := rfl
  have c5 : contrib x y 5 = rowPart x y 2 1 + colPart x y 2 := rfl
  have c6 : contrib x y 6 = rowPart x y 3 0 := rfl
  have c7 : contrib x y 7 = rowPart x y 3 1 + colPart x y 3 := rfl
  simp only [kerTotal, Finset.sum_range_succ, Finset.sum_range_zero, c0, c1, c2, c3, c4, c5, c6, c7,
    Fin.sum_univ_four, zero_add, add_assoc]

/-! ## The nearest neighbours in the second spelling -/

theorem near1_eq (x y : Cloud) (hx : ∀ i, ∃ r : ℝ, x i = (r : EReal)) (hy : ∀ i, ∃ r : ℝ, y i = (r : EReal))
    (β : Fin 4) (n : Fin 4096) :
    near1 x y β n = max (⨅ m : Fin 4096, dk (pt x β n) (pt y β m)) 0 := by
  rw [max_iInf_zero]
  simp only [near1, dist, dk_eq x y hx hy]

theorem near2_eq (x y : Cloud) (hx : ∀ i, ∃ r : ℝ, x i = (r : EReal)) (hy : ∀ i, ∃ r : ℝ, y i = (r : EReal))
    (β : Fin 4) (m : Fin 4096) :
    near2 x y β m = max (min (colBlk x y β 0 m) (colBlk x y β 1 m)) 0 := by
  simp only [colBlk]
  rw [← iInf_rows (fun n => dk (pt x β n) (pt y β m)), max_iInf_zero]
  simp only [near2, dist, dk_eq x y hx hy]

/-- The two blocks' row parts make the sum over all rows of the root of the nearest-neighbour distance. -/
theorem rowParts_eq (x y : Cloud) (hx : ∀ i, ∃ r : ℝ, x i = (r : EReal)) (hy : ∀ i, ∃ r : ℝ, y i = (r : EReal))
    (β : Fin 4) :
    rowPart x y β 0 + rowPart x y β 1 = ∑ n : Fin 4096, Ideal.sqrt (near1 x y β n) := by
  rw [sum_rows]
  simp only [rowPart, near1_eq x y hx hy]

theorem colPart_eq (x y : Cloud) (hx : ∀ i, ∃ r : ℝ, x i = (r : EReal)) (hy : ∀ i, ∃ r : ℝ, y i = (r : EReal))
    (β : Fin 4) :
    colPart x y β = ∑ m : Fin 4096, Ideal.sqrt (near2 x y β m) := by
  simp only [colPart, near2_eq x y hx hy]

/-! ## Nonnegativity and the divisions -/

/-- The root of a nonnegative extended real is nonnegative. -/
theorem sqrt_nonneg {b : EReal} (h : 0 ≤ b) : 0 ≤ Ideal.sqrt b := by
  induction b using EReal.rec with
  | bot => simp at h
  | coe r =>
    have hr : 0 ≤ r := by exact_mod_cast h
    rw [Ideal.sqrt_coe, if_neg (not_lt.mpr hr)]
    exact_mod_cast Real.sqrt_nonneg r
  | top => simp

theorem near1_nonneg (x y : Cloud) (β : Fin 4) (n : Fin 4096) : 0 ≤ near1 x y β n :=
  le_iInf fun _ => le_max_right _ _

theorem near2_nonneg (x y : Cloud) (β : Fin 4) (m : Fin 4096) : 0 ≤ near2 x y β m :=
  le_iInf fun _ => le_max_right _ _

/-- One division by `32768` of a sum of nonnegative totals is the half of the two divisions by `16384`. -/
theorem div_means (S1 S2 : EReal) (h1 : 0 ≤ S1) (h2 : 0 ≤ S2) :
    Ideal.div (S1 + S2) ((32768 : ℝ) : EReal)
      = Ideal.div (Ideal.div S1 ((16384 : ℝ) : EReal) + Ideal.div S2 ((16384 : ℝ) : EReal)) ((2 : ℝ) : EReal) := by
  rw [Ideal.div_coe (y := 32768) (by norm_num), Ideal.div_coe (y := 16384) (by norm_num),
    Ideal.div_coe (y := 16384) (by norm_num), Ideal.div_coe (y := 2) (by norm_num)]
  have c : (0 : EReal) ≤ ((1 / 16384 : ℝ) : EReal) := by exact_mod_cast (by norm_num : (0 : ℝ) ≤ 1 / 16384)
  rw [EReal.right_distrib_of_nonneg h1 h2, EReal.right_distrib_of_nonneg (mul_nonneg h1 c) (mul_nonneg h2 c),
    mul_assoc, mul_assoc, ← EReal.coe_mul]
  norm_num

/-! ## The two spellings agree -/

theorem kerLoss_eq_refLoss (x y : Cloud) (hx : ∀ i, ∃ r : ℝ, x i = (r : EReal)) (hy : ∀ i, ∃ r : ℝ, y i = (r : EReal)) :
    kerLoss x y = refLoss x y := by
  have hb : ∀ β : Fin 4, rowPart x y β 0 + rowPart x y β 1 + colPart x y β
      = (∑ n : Fin 4096, Ideal.sqrt (near1 x y β n)) + ∑ m : Fin 4096, Ideal.sqrt (near2 x y β m) := fun β => by
    rw [rowParts_eq x y hx hy, colPart_eq x y hx hy]
  rw [kerLoss, kerTotal_eq, refLoss]
  simp only [hb, Finset.sum_add_distrib, zero_add]
  exact div_means _ _
    (Finset.sum_nonneg fun β _ => Finset.sum_nonneg fun n _ => sqrt_nonneg (near1_nonneg x y β n))
    (Finset.sum_nonneg fun β _ => Finset.sum_nonneg fun m _ => sqrt_nonneg (near2_nonneg x y β m))

end Cert.Chamfer

end
-- ==== Proof.RefSide.lean ====
import proofs.«145149_g19164144075464_cont_8to1_1702_15_alg».proof.Proof.Gen.ReferenceIdeal.Read
import proofs.«145149_g19164144075464_cont_8to1_1702_15_alg».proof.Proof.ChamferSpec
import Idealize.ShloMosaic.Lib.ValueIdx
import Idealize.ShloMosaic.Lib.Pipeline.Value
import Idealize.ShloMosaic.PureOps.Ideal.Laws

/-!
# The reference's result, read one operation at a time

Each squared distance `|a|² + |b|² - 2 a·b` is clamped at zero; a minimum-reduction along an axis from the top
element is the infimum over that axis's coordinate; the two total sums over a [4, 4096] array are double sums over
batch and point; the two means and their half are the three divisions.
-/

noncomputable section

namespace Cert.RefSide

open Cert.ReferenceIdeal Cert.ReferenceIdeal.Gen Cert.ReferenceIdeal.Read Cert.Chamfer
open Idealize.ShloMosaic Idealize.ShloMosaic.ValueIdx Idealize.ShloMosaic.StableHlo

/-- A fold of the minimum from the top element over all of a finite range is the infimum. -/
theorem fold_min_top {n : Nat} (f : Fin n → EReal) :
    (Finset.univ : Finset (Fin n)).fold (FloatOps.minimumf (F := Ideal) (φ := .f32)) (⊤ : EReal) f = ⨅ k, f k := by
  show (Finset.univ : Finset (Fin n)).fold min (⊤ : EReal) f = ⨅ k, f k
  refine eq_of_forall_le_iff fun c => ?_
  rw [Finset.le_fold_min, le_iInf_iff]
  simp

theorem lift_d2 (h : S4x4096x4096.Reduces [2] S4x4096) (β : Fin 4) (n k : Fin 4096) :
    h.lift (ix2 β n) k = ix3 β n k := by
  funext c
  apply Fin.ext
  match c with
  | ⟨0, _⟩ => rfl
  | ⟨1, _⟩ => rfl
  | ⟨2, _⟩ => rfl

theorem lift_d1 (h : S4x4096x4096.Reduces [1] S4x4096) (β : Fin 4) (m k : Fin 4096) :
    h.lift (ix2 β m) k = ix3 β k m := by
  funext c
  apply Fin.ext
  match c with
  | ⟨0, _⟩ => rfl
  | ⟨1, _⟩ => rfl
  | ⟨2, _⟩ => rfl

theorem fold_min_top' {n : Nat} (g f : Fin n → EReal) (hfg : ∀ k, g k = f k) :
    (Finset.univ : Finset (Fin n)).fold (FloatOps.minimumf (F := Ideal) (φ := .f32)) (⊤ : EReal) g = ⨅ k, f k := by
  rw [show g = f from funext hfg]; exact fold_min_top f

/-- The minimum-reduction over the last axis, read at a pair: the infimum over the last coordinate. -/
theorem v15_at (x0 x1 : (⟨S4x4096x3, .f32⟩ : BufTy).Contents (Elt Ideal)) (β : Fin 4) (n : Fin 4096) :
    val_main_v15 (F := Ideal) x0 x1 (ix2 β n) = ⨅ m : Fin 4096, val_main_v14 (F := Ideal) x0 x1 (ix3 β n m) := by
  unfold val_main_v15
  have h : S4x4096x4096.Reduces [2] S4x4096 := by decide
  rw [Host.reduce_eq_fold_single (FloatOps.minimumf (F := Ideal) (φ := .f32)) _ _ Facts₀.reducesTo_S4x4096x4096_S4x4096_d2 h Facts₀.h_S_ (ix2 β n)]
  rw [val_main_cst_3_apply, Ideal.ofBits_def, w_inf]
  exact fold_min_top' (n := 4096) _ _ (fun k => congrArg (val_main_v14 (F := Ideal) x0 x1) (lift_d2 h β n k))

/-- The minimum-reduction over the middle axis, read at a pair: the infimum over the middle coordinate. -/
theorem v16_at (x0 x1 : (⟨S4x4096x3, .f32⟩ : BufTy).Contents (Elt Ideal)) (β : Fin 4) (m : Fin 4096) :
    val_main_v16 (F := Ideal) x0 x1 (ix2 β m) = ⨅ n : Fin 4096, val_main_v14 (F := Ideal) x0 x1 (ix3 β n m) := by
  unfold val_main_v16
  have h : S4x4096x4096.Reduces [1] S4x4096 := by decide
  rw [Host.reduce_eq_fold_single (FloatOps.minimumf (F := Ideal) (φ := .f32)) _ _ Facts₀.reducesTo_S4x4096x4096_S4x4096_d1 h Facts₀.h_S_ (ix2 β m)]
  rw [val_main_cst_4_apply, Ideal.ofBits_def, w_inf]
  exact fold_min_top' (n := 4096) _ _ (fun k => congrArg (val_main_v14 (F := Ideal) x0 x1) (lift_d1 h β m k))

/-- The broadcast squared norm of the first cloud's point. -/
theorem v7_at (x0 : (⟨S4x4096x3, .f32⟩ : BufTy).Contents (Elt Ideal)) (β : Fin 4) (n m : Fin 4096) :
    val_main_v7 (F := Ideal) x0 (ix3 β n m) = Chamfer.sq x0 β n := by
  rw [val_main_v7_apply, val_main_v5_apply, val_main_v1_apply, val_main_cst_apply, Ideal.ofBits_def, Ideal.ofBits_zero_f32]
  unfold Chamfer.sq
  refine congrArg (_ + ·) (Finset.sum_congr rfl fun k _ => ?_)
  rw [val_main_v0_apply, Ideal.mulf_def]
  have e : idx_main_v1 (idx_main_v5 (idx_main_v7 (ix3 β n m))) k = ix3 β n k :=
    funext fun a => Fin.ext (by match a with | ⟨0, _⟩ => rfl | ⟨1, _⟩ => rfl | ⟨2, _⟩ => rfl)
  rw [e]

/-- The broadcast squared norm of the second cloud's point. -/
theorem v8_at (x1 : (⟨S4x4096x3, .f32⟩ : BufTy).Contents (Elt Ideal)) (β : Fin 4) (n m : Fin 4096) :
    val_main_v8 (F := Ideal) x1 (ix3 β n m) = Chamfer.sq x1 β m := by
  rw [val_main_v8_apply, val_main_v6_apply, val_main_v3_apply, val_main_cst_0_apply, Ideal.ofBits_def, Ideal.ofBits_zero_f32]
  unfold Chamfer.sq
  refine congrArg (_ + ·) (Finset.sum_congr rfl fun k _ => ?_)
  rw [val_main_v2_apply, Ideal.mulf_def]
  have e : idx_main_v3 (idx_main_v6 (idx_main_v8 (ix3 β n m))) k = ix3 β m k :=
    funext fun a => Fin.ext (by match a with | ⟨0, _⟩ => rfl | ⟨1, _⟩ => rfl | ⟨2, _⟩ => rfl)
  rw [e]

/-- The inner product of the two points. -/
theorem v4_at (x0 x1 : (⟨S4x4096x3, .f32⟩ : BufTy).Contents (Elt Ideal)) (β : Fin 4) (n m : Fin 4096) :
    val_main_v4 (F := Ideal) x0 x1 (ix3 β n m) = Chamfer.dot x0 x1 β n m := by
  rw [val_main_v4_apply]
  unfold Chamfer.dot
  refine Finset.sum_congr rfl fun k _ => ?_
  have el : lidx_main_v4 (ix3 β n m) k = ix3 β n k :=
    funext fun a => Fin.ext (by match a with | ⟨0, _⟩ => rfl | ⟨1, _⟩ => rfl | ⟨2, _⟩ => rfl)
  have er : ridx_main_v4 (ix3 β n m) k = ix3 β m k :=
    funext fun a => Fin.ext (by match a with | ⟨0, _⟩ => rfl | ⟨1, _⟩ => rfl | ⟨2, _⟩ => rfl)
  rw [el, er]

/-- The clamped squared distance of the two points. -/
theorem v14_at (x0 x1 : (⟨S4x4096x3, .f32⟩ : BufTy).Contents (Elt Ideal)) (β : Fin 4) (n m : Fin 4096) :
    val_main_v14 (F := Ideal) x0 x1 (ix3 β n m) = Chamfer.dist x0 x1 β n m := by
  rw [val_main_v14_apply, val_main_v12_apply, val_main_v9_apply, val_main_v11_apply, val_main_v10_apply,
    val_main_v13_apply, val_main_cst_1_apply, val_main_cst_2_apply, v7_at, v8_at, v4_at]
  rw [Ideal.ofBits_def, Ideal.ofBits_def, Ideal.ofBits_zero_f32, w_two, Ideal.maximumf_def, Ideal.subf_def,
    Ideal.addf_def, Ideal.mulf_def]
  rfl

/-- The nearest-neighbour squared distance from a point of the first cloud. -/
theorem v15_near (x0 x1 : (⟨S4x4096x3, .f32⟩ : BufTy).Contents (Elt Ideal)) (β : Fin 4) (n : Fin 4096) :
    val_main_v15 (F := Ideal) x0 x1 (ix2 β n) = Chamfer.near1 x0 x1 β n := by
  rw [v15_at]
  unfold Chamfer.near1
  exact iInf_congr fun m => v14_at x0 x1 β n m

/-- The nearest-neighbour squared distance from a point of the second cloud. -/
theorem v16_near (x0 x1 : (⟨S4x4096x3, .f32⟩ : BufTy).Contents (Elt Ideal)) (β : Fin 4) (m : Fin 4096) :
    val_main_v16 (F := Ideal) x0 x1 (ix2 β m) = Chamfer.near2 x0 x1 β m := by
  rw [v16_at]
  unfold Chamfer.near2
  exact iInf_congr fun n => v14_at x0 x1 β n m

/-- The total of the roots of the first direction's nearest-neighbour distances. -/
theorem v18_at (x0 x1 : (⟨S4x4096x3, .f32⟩ : BufTy).Contents (Elt Ideal)) (i : S_.Idx) :
    val_main_v18 (F := Ideal) x0 x1 i
      = 0 + ∑ β : Fin 4, ∑ n : Fin 4096, Ideal.sqrt (Chamfer.near1 x0 x1 β n) := by
  rw [val_main_v18_apply, val_main_cst_5_apply, Ideal.ofBits_def, Ideal.ofBits_zero_f32, ValueIdx.sum_idx2]
  refine congrArg (_ + ·) (Finset.sum_congr rfl fun β _ => Finset.sum_congr rfl fun n _ => ?_)
  rw [val_main_v17_apply, Ideal.hostUnary_sqrt_def, v15_near]

/-- The total of the roots of the second direction's nearest-neighbour distances. -/
theorem v21_at (x0 x1 : (⟨S4x4096x3, .f32⟩ : BufTy).Contents (Elt Ideal)) (i : S_.Idx) :
    val_main_v21 (F := Ideal) x0 x1 i
      = 0 + ∑ β : Fin 4, ∑ m : Fin 4096, Ideal.sqrt (Chamfer.near2 x0 x1 β m) := by
  rw [val_main_v21_apply, val_main_cst_7_apply, Ideal.ofBits_def, Ideal.ofBits_zero_f32, ValueIdx.sum_idx2]
  refine congrArg (_ + ·) (Finset.sum_congr rfl fun β _ => Finset.sum_congr rfl fun m _ => ?_)
  rw [val_main_v20_apply, Ideal.hostUnary_sqrt_def, v16_near]

/-- The reference program's result is the half sum of the two mean nearest-neighbour distances. -/
theorem ref_value (x0 x1 : (⟨Cert.ReferenceIdeal.S4x4096x3, .f32⟩ : BufTy).Contents (Elt Ideal)) :
    Cert.ReferenceIdeal.Read.val_main_v24 (F := Ideal) x0 x1 = fun _ => Cert.Chamfer.refLoss x0 x1 := by
  funext i
  rw [val_main_v24_apply, val_main_v23_apply, val_main_v19_apply, val_main_v22_apply, v18_at, v21_at,
    val_main_cst_6_apply, val_main_cst_8_apply, val_main_cst_9_apply]
  rw [Ideal.ofBits_def, Ideal.ofBits_def, w_16384, w_two, Ideal.addf_def, Ideal.hostDivf_def, Ideal.hostDivf_def]
  rfl

end Cert.RefSide

end
-- ==== Proof.Finite.lean ====
/-
  From the precondition to "every coordinate is a real number".

  The precondition computes, for each of the two inputs, the conjunction over all indices of the
  comparison |x i| < +∞, and then the conjunction of the two results. If the result is the word 1, each
  comparison is 1, so |x i| = max (x i) (-(x i)) < ⊤ in the extended reals; an extended real is ⊥, ⊤ or
  a real number, and neither ⊥ (whose negation is ⊤) nor ⊤ has absolute value below ⊤. So every
  coordinate of both inputs is a real number.
-/
import proofs.«145149_g19164144075464_cont_8to1_1702_15_alg».proof.Proof.Gen.Pre_finite_inputs
import Idealize.ShloMosaic.Lib.ReduceAll
import Idealize.ShloMosaic.PureOps.Ideal.Laws
import Idealize.ShloMosaic.Lib.ValueIdx

noncomputable section

namespace Cert.Finite

open Idealize.ShloMosaic

/-- The word 0x7F800000 denotes +∞. -/
theorem inf_word : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value max a (-a) compares strictly below +∞ is a real number. -/
theorem real_of_cmp (a : EReal)
    (h : Ideal.cmp .olt (max a (-a)) (⊤ : EReal) = 1#1) : ∃ r : ℝ, a = (r : EReal) := by
  unfold Ideal.cmp at h
  rw [ofBool_eq_one] at h
  have hlt : max a (-a) < (⊤ : EReal) := of_decide_eq_true h
  induction a using EReal.rec with
  | bot => simp at hlt
  | top => simp at hlt
  | coe r => exact ⟨r, rfl⟩

/-- The rank-0 shape has one index. -/
instance : Subsingleton Cert.Pre_finite_inputs.S_.Idx := ⟨fun a b => funext fun d => d.elim0⟩

/-- One input: if the conjunction over all indices of |x i| < +∞ is 1, every x i is a real number. -/
theorem real_of_all [hP : Cert.Pre_finite_inputs.Facts]
    (x : FVec Ideal Cert.Pre_finite_inputs.S4x4096x3 .f32)
    (h : Host.reduce IntOp.andi
          (cmpf .olt (Host.absf x)
            (broadcastInDim Cert.Pre_finite_inputs.S4x4096x3 ![] hP.bcast_S_S4x4096x3
              (constant (F := Ideal) Cert.Pre_finite_inputs.S_ .f32 0x7F800000#32)))
          (constantI Cert.Pre_finite_inputs.S_ 1 1#1)
          hP.reducesTo_S4x4096x3_S_d0_1_2 hP.h_S_ ValueIdx.ix0 = 1#1) :
    ∀ i, ∃ r : ℝ, x i = (r : EReal) := by
  intro i
  have e := Host.reduce_andi_all _ _ _ _ _ h i
  apply real_of_cmp
  have : cmpf .olt (Host.absf x)
            (broadcastInDim Cert.Pre_finite_inputs.S4x4096x3 ![] hP.bcast_S_S4x4096x3
              (constant (F := Ideal) Cert.Pre_finite_inputs.S_ .f32 0x7F800000#32)) i
         = Ideal.cmp .olt (max (x i) (-(x i))) (⊤ : EReal) := by
    show Ideal.cmp .olt (max (x i) (-(x i))) (Ideal.ofBits .f32 0x7F800000#32) = _
    rw [inf_word]
  rw [← this]
  exact e

theorem real_of_pre [hP : Cert.Pre_finite_inputs.Facts]
    (x y : FVec Ideal Cert.Pre_finite_inputs.S4x4096x3 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨real_of_all x hx, real_of_all y hy⟩

end Cert.Finite

end
-- ==== Proof.Pieces.lean ====
import proofs.«145149_g19164144075464_cont_8to1_1702_15_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case of the body leaves, as the body's pure terms of what it loaded

The first grid point stores the block's column minima into the carried row and starts the running total at
zero plus the block's row part; a later even point does the same over the total the point before left; an odd
point lowers the carried row by the block's column minima, adds the block's row part to the total, and then adds
the column part read off the lowered row. -/

theorem scratch_A (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : cond0_2 i) (hc3 : ¬cond0_3 i) (x0 : Vec F S1x2048x3 .f32) (x1 : Vec F S1x3x4096 .f32) :
    sout0_A_0 c i arg2 harg2 arg3 harg3 arg4 harg4 arg5 harg5 hc0 hc1 hc2 hc3 x0 x1 = k0_pay1 (k0_pay7 x0 x1) := by
  unfold sout0_A_0
  rw [View.read_writes_eq_canon _ _ _ (scover0_A_0 c i arg2 harg2 arg3 harg3 arg4 harg4 arg5 harg5 hc0 hc1 hc2 hc3 x0 x1)]
  unfold kernelRun0_A
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

theorem out_A (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : cond0_2 i) (hc3 : ¬cond0_3 i) (x0 : Vec F S1x2048x3 .f32) (x1 : Vec F S1x3x4096 .f32) :
    out0_A_2 c i arg2 harg2 arg3 harg3 arg4 harg4 arg5 harg5 hc0 hc1 hc2 hc3 x0 x1 = k0_pay4 (k0_pay8 x0 x1) k0_pay3 := by
  unfold out0_A_2
  rw [View.read_writes_eq_canon _ _ _ (cover0_A_2 c i arg2 harg2 arg3 harg3 arg4 harg4 arg5 harg5 hc0 hc1 hc2 hc3 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

theorem scratch_C (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : ¬cond0_2 i) (hc3 : ¬cond0_3 i) (x0 : Vec F S1x2048x3 .f32) (x1 : Vec F S1x3x4096 .f32) (xo2 : Vec F S1x1 .f32) :
    sout0_C_0 c i arg2 harg2 arg3 harg3 arg4 harg4 arg5 harg5 hc0 hc1 hc2 hc3 x0 x1 xo2 = k0_pay1 (k0_pay7 x0 x1) := by
  unfold sout0_C_0
  rw [View.read_writes_eq_canon _ _ _ (scover0_C_0 c i arg2 harg2 arg3 harg3 arg4 harg4 arg5 harg5 hc0 hc1 hc2 hc3 x0 x1 xo2)]
  unfold kernelRun0_C
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

theorem out_C (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : ¬cond0_2 i) (hc3 : ¬cond0_3 i) (x0 : Vec F S1x2048x3 .f32) (x1 : Vec F S1x3x4096 .f32) (xo2 : Vec F S1x1 .f32) :
    out0_C_2 c i arg2 harg2 arg3 harg3 arg4 harg4 arg5 harg5 hc0 hc1 hc2 hc3 x0 x1 xo2 = k0_pay4 (k0_pay8 x0 x1) xo2 := by
  unfold out0_C_2
  rw [View.read_writes_eq_canon _ _ _ (cover0_C_2 c i arg2 harg2 arg3 harg3 arg4 harg4 arg5 harg5 hc0 hc1 hc2 hc3 x0 x1 xo2)]
  unfold kernelRun0_C
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

theorem scratch_B (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : ¬cond0_0 i) (hc1 : cond0_1 i) (hc2 : ¬cond0_2 i) (hc3 : cond0_3 i) (x0 : Vec F S1x2048x3 .f32) (x1 : Vec F S1x3x4096 .f32) (xo2 : Vec F S1x1 .f32) (xs0 : Vec F S1x4096 .f32) :
    sout0_B_0 c i arg2 harg2 arg3 harg3 arg4 harg4 arg5 harg5 hc0 hc1 hc2 hc3 x0 x1 xo2 xs0 = k0_pay2 (k0_pay7 x0 x1) xs0 := by
  unfold sout0_B_0
  rw [View.read_writes_eq_canon _ _ _ (scover0_B_0 c i arg2 harg2 arg3 harg3 arg4 harg4 arg5 harg5 hc0 hc1 hc2 hc3 x0 x1 xo2 xs0)]
  unfold kernelRun0_B
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

theorem out_B (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : ¬cond0_0 i) (hc1 : cond0_1 i) (hc2 : ¬cond0_2 i) (hc3 : cond0_3 i) (x0 : Vec F S1x2048x3 .f32) (x1 : Vec F S1x3x4096 .f32) (xo2 : Vec F S1x1 .f32) (xs0 : Vec F S1x4096 .f32) :
    out0_B_2 c i arg2 harg2 arg3 harg3 arg4 harg4 arg5 harg5 hc0 hc1 hc2 hc3 x0 x1 xo2 xs0 = k0_pay5 (k0_pay2 (k0_pay7 x0 x1) xs0) (k0_pay4 (k0_pay8 x0 x1) xo2) := by
  unfold out0_B_2
  rw [View.read_writes_eq_canon _ _ _ (cover0_B_2 c i arg2 harg2 arg3 harg3 arg4 harg4 arg5 harg5 hc0 hc1 hc2 hc3 x0 x1 xo2 xs0)]
  unfold kernelRun0_B
  dsimp only
  sl_unfold_words
  rw [View.canon_cons_unit_zero (S := S1x1) hz2, View.readCov_unit_zero (S := S1x1) _ hz2, View.readCov_unit_zero (S := S1x4096) _ hz2]
  simp only [View.readAt_eq_ld, harg2.read_unread, harg3.read_unread, harg4.read_unread, harg5.read_unread, View.ld_unit_zero (S := S1x2048x3) hz3, View.ld_unit_zero (S := S1x3x4096) hz3, View.ld_unit_zero (S := S1x1) hz2, View.ld_unit_zero (S := S1x4096) hz2]

end Cert.KernelIdeal.KVal
end
-- ==== Proof.Blocks.lean ====
import proofs.«145149_g19164144075464_cont_8to1_1702_15_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-! ## The windows' blocks, read at an index

Grid point `t` works on batch `t / 2` and on row block `t % 2` of the first cloud: the first window's block
holds rows `2048 (t % 2) + p` of that batch, the second window's the whole transposed second cloud of it. -/

/-- The windows' block indices over the eight grid points: the batch is the point halved, the row block its parity. -/
theorem idx_facts : ∀ t : Fin cfg0.N,
    win0_0.index t 0 = t.val / 2 ∧ win0_0.index t 1 = t.val % 2 ∧ win0_0.index t 2 = 0
    ∧ win0_1.index t 0 = t.val / 2 ∧ win0_1.index t 1 = 0 ∧ win0_1.index t 2 = 0 :=
  (by decide +kernel : ∀ t : Fin grid0.N, _)

/-- The first window's block at point `t`, row `p`, coordinate `k`: the first cloud at batch `t / 2`, point
    `2048 (t % 2) + p`. -/
theorem iblk0_apply (c : Dev nD) (t : Fin cfg0.N) (p : Fin 2048) (k : Fin 3) (β : Fin 4) (n : Fin 4096)
    (hβ : β.val = t.val / 2) (hn : n.val = 2048 * (t.val % 2) + p.val) :
    (iblk m c 0 t : Vec F S1x2048x3 .f32) (ix3 0 p k) = m ((c : Thread nD τ).loc main_arg0) (ix3 β n k) := by
  obtain ⟨h0, h1, h2, -, -, -⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = β.val; rw [h0, hβ]; omega
  | ⟨1, _⟩ => show win0_0.index t 1 * 2048 + 1 * p.val = n.val; rw [h1, hn]; omega
  | ⟨2, _⟩ => show win0_0.index t 2 * 3 + 1 * k.val = k.val; rw [h2]; omega

/-- The transposed second cloud the region finds, read at an index. -/
theorem V_main_v0_apply (c : Dev nD) (β : Fin 4) (k : Fin 3) (q : Fin 4096) :
    (V m c main_v0 : S4x3x4096.Idx → Elt F .f32) (ix3 β k q) = m ((c : Thread nD τ).loc main_arg1) (ix3 β q k) := by
  have e : (V m c main_v0 : S4x3x4096.Idx → Elt F .f32)
      = transpose S4x3x4096 [0, 2, 1] (m ((c : Thread nD τ).loc main_arg1)) transposes_S4x4096x3_S4x3x4096_0_2_1 := by
    show StableHlo.after hostOps0 (fun b => m (c, b)) (Proc.devRef .tc main_v0) = _
    after_results
  rw [e]
  exact transpose_apply _ _ _ _ (ix3 β q k) (fun b => by
    match b with
    | ⟨0, _⟩ => rfl
    | ⟨1, _⟩ => rfl
    | ⟨2, _⟩ => rfl)

/-- The second window's block at point `t`, coordinate `k`, column `q`: the second cloud at batch `t / 2`,
    point `q`. -/
theorem iblk1_apply (c : Dev nD) (t : Fin cfg0.N) (k : Fin 3) (q : Fin 4096) (β : Fin 4) (hβ : β.val = t.val / 2) :
    (iblk m c 1 t : Vec F S1x3x4096 .f32) (ix3 0 k q) = m ((c : Thread nD τ).loc main_arg1) (ix3 β q k) := by
  obtain ⟨-, -, -, h0, h1, h2⟩ := idx_facts t
  unfold iblk
  rw [View.read_apply]
  show V m c main_v0 _ = _
  rw [← V_main_v0_apply m c β k q]
  congr 1
  funext a
  apply Fin.ext
  match a with
  | ⟨0, _⟩ => show win0_1.index t 0 * 1 + 1 * 0 = β.val; rw [h0, hβ]; omega
  | ⟨1, _⟩ => show win0_1.index t 1 * 3 + 1 * k.val = k.val; rw [h1]; omega
  | ⟨2, _⟩ => show win0_1.index t 2 * 4096 + 1 * q.val = q.val; rw [h2]; omega

end Cert.KernelIdeal.KVal
end
-- ==== Proof.PayValue.lean ====
import proofs.«145149_g19164144075464_cont_8to1_1702_15_alg».proof.Proof.Gen.KernelIdeal.Skeleton
import proofs.«145149_g19164144075464_cont_8to1_1702_15_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

/-!
# The step's arithmetic read at an index, over the extended reals

The matrix of augmented inner products at an entry is the seven-term inner product `dk` of the two augmented points;
its column minimum, taken over 64 blocks of 32 rows and then over the 32 residues, is the infimum over all rows; the
sum over the rows of the root of the clamped row minimum is a sum over the 2048 rows; and the small pointwise terms
(a running minimum, a running total, a zero) read elementwise.
-/

namespace Cert.KernelIdeal.PayValue

open Cert.KernelIdeal Cert.KernelIdeal.Gen Idealize.ShloMosaic Idealize.ShloMosaic.ValueIdx Cert.Chamfer

/-! ## The small pointwise terms -/

theorem pay1_apply (v33 : FVec Ideal S1x4096 .f32) (q : Fin 4096) : k0_pay1 (F := Ideal) v33 (ix2 0 q) = v33 (ix2 0 q) := by
  unfold k0_pay1
  rw [shapeCast_self]

theorem pay2_apply (v33 : FVec Ideal S1x4096 .f32) (v60 : Vec Ideal S1x4096 .f32) (q : Fin 4096) :
    k0_pay2 (F := Ideal) v33 v60 (ix2 0 q) = min (v60 (ix2 0 q)) (v33 (ix2 0 q)) := by
  unfold k0_pay2
  rw [shapeCast_self]
  rfl

theorem pay3_apply : k0_pay3 (F := Ideal) (ix2 0 0) = 0 := by
  unfold k0_pay3
  show Ideal.ofBits .f32 0x00000000#32 = 0
  exact Ideal.ofBits_zero_f32

theorem pay4_apply (v40 : Ideal .f32) (v53 : Vec Ideal S1x1 .f32) :
    k0_pay4 (F := Ideal) v40 v53 (ix2 0 0) = v53 (ix2 0 0) + v40 := by
  unfold k0_pay4
  rw [shapeCast_self]
  rfl

/-- A sum over the indices of a `[1, 1, n]` array is the sum over its last coordinate. -/
def idxEquiv11n (n : Nat) : (⟨3, ![1, 1, n]⟩ : Shape).Idx ≃ Fin n where
  toFun i := i 2
  invFun q := ix3 0 0 q
  left_inv i := by
    funext a
    match a with
    | ⟨0, _⟩ => exact Fin.ext (by have := (i 0).isLt; simp at this; show 0 = (i 0).val; omega)
    | ⟨1, _⟩ => exact Fin.ext (by have := (i 1).isLt; simp at this; show 0 = (i 1).val; omega)
    | ⟨2, _⟩ => rfl
  right_inv _ := rfl

theorem sum_idx11n {n : Nat} (f : (⟨3, ![1, 1, n]⟩ : Shape).Idx → EReal) :
    ∑ i, f i = ∑ q : Fin n, f (ix3 0 0 q) := by
  rw [← Equiv.sum_comp (idxEquiv11n n).symm f]
  rfl

/-- A sum over the indices of a `[1, n, 1]` array is the sum over its middle coordinate. -/
def idxEquiv1n1 (n : Nat) : (⟨3, ![1, n, 1]⟩ : Shape).Idx ≃ Fin n where
  toFun i := i 1
  invFun q := ix3 0 q 0
  left_inv i := by
    funext a
    match a with
    | ⟨0, _⟩ => exact Fin.ext (by have := (i 0).isLt; simp at this; show 0 = (i 0).val; omega)
    | ⟨1, _⟩ => rfl
    | ⟨2, _⟩ => exact Fin.ext (by have := (i 2).isLt; simp at this; show 0 = (i 2).val; omega)
  right_inv _ := rfl

theorem sum_idx1n1 {n : Nat} (f : (⟨3, ![1, n, 1]⟩ : Shape).Idx → EReal) :
    ∑ i, f i = ∑ q : Fin n, f (ix3 0 q 0) := by
  rw [← Equiv.sum_comp (idxEquiv1n1 n).symm f]
  rfl

theorem pay5_apply (v60 : Vec Ideal S1x4096 .f32) (v63 : Vec Ideal S1x1 .f32) :
    k0_pay5 (F := Ideal) v60 v63 (ix2 0 0) = v63 (ix2 0 0) + ∑ q : Fin 4096, Ideal.sqrt (max (v60 (ix2 0 q)) 0) := by
  unfold k0_pay5
  rw [shapeCast_self]
  refine congrArg (v63 (ix2 0 0) + ·) ?_
  rw [broadcast_apply]
  unfold extractAt
  rw [shapeCast_apply _ _ _ (ix1 (0 : Fin 1)) (by rfl)]
  refine (Ideal.multiReduction_add_total _ _ _ (by decide) _ _ _).trans ?_
  rw [sum_idx11n]
  refine Finset.sum_congr rfl fun q _ => ?_
  rw [shapeCast_ab_1ab_apply]
  show Ideal.sqrt (max (v60 (ix2 0 q)) (Ideal.ofBits .f32 0x00000000#32)) = _
  rw [Ideal.ofBits_zero_f32]

/-! ## The two concatenations read at a literal column / row -/

section Cat
variable {α : Type}

/-- Five column pieces of widths 3, 1, 1, 1, 1 laid side by side: column `k` of row `p`. -/
theorem cat5_apply (A : S2048x3.Idx → α) (B C D E : S2048x1.Idx → α)
    (h : Shape.Concatenates [S2048x3, S2048x1, S2048x1, S2048x1, S2048x1] S2048x7 1) (p : Fin 2048) (k : Fin 7) :
    concatenate S2048x7 1 [⟨S2048x3, A⟩, ⟨S2048x1, B⟩, ⟨S2048x1, C⟩, ⟨S2048x1, D⟩, ⟨S2048x1, E⟩] h (ix2 p k)
      = (![A (ix2 p 0), A (ix2 p 1), A (ix2 p 2), B (ix2 p 0), C (ix2 p 0), D (ix2 p 0), E (ix2 p 0)] : Fin 7 → α) k := by
  have hi : ∀ {n : Nat} (c : Fin n) (c' : Fin 7) (b : Fin 2), (b.cast (rfl : (2 : Nat) = 2)) ≠ (1 : Fin 2) →
      ((ix2 p c) b).val = ((ix2 p c') (b.cast rfl)).val := fun c c' b hb => by
    match b, hb with
    | ⟨0, _⟩, _ => rfl
    | ⟨1, _⟩, hb => exact absurd (Fin.ext rfl) hb
  have key := concatenate_apply_piece (1 : Fin S2048x7.rank)
    [⟨S2048x3, A⟩, ⟨S2048x1, B⟩, ⟨S2048x1, C⟩, ⟨S2048x1, D⟩, ⟨S2048x1, E⟩] h
  match k with
  | ⟨0, _⟩ => exact key (ix2 p ⟨0, by omega⟩) 0 (by simp) S2048x3 A rfl rfl 0 (by rfl) (ix2 p 0) (hi _ _) (by rfl)
  | ⟨1, _⟩ => exact key (ix2 p ⟨1, by omega⟩) 0 (by simp) S2048x3 A rfl rfl 0 (by rfl) (ix2 p 1) (hi _ _) (by rfl)
  | ⟨2, _⟩ => exact key (ix2 p ⟨2, by omega⟩) 0 (by simp) S2048x3 A rfl rfl 0 (by rfl) (ix2 p 2) (hi _ _) (by rfl)
  | ⟨3, _⟩ => exact key (ix2 p ⟨3, by omega⟩) 1 (by simp) S2048x1 B rfl rfl 3 (by rfl) (ix2 p 0) (hi _ _) (by rfl)
  | ⟨4, _⟩ => exact key (ix2 p ⟨4, by omega⟩) 2 (by simp) S2048x1 C rfl rfl 4 (by rfl) (ix2 p 0) (hi _ _) (by rfl)
  | ⟨5, _⟩ => exact key (ix2 p ⟨5, by omega⟩) 3 (by simp) S2048x1 D rfl rfl 5 (by rfl) (ix2 p 0) (hi _ _) (by rfl)
  | ⟨6, _⟩ => exact key (ix2 p ⟨6, by omega⟩) 4 (by simp) S2048x1 E rfl rfl 6 (by rfl) (ix2 p 0) (hi _ _) (by rfl)
  | ⟨n + 7, hn⟩ => exact absurd hn (by omega)

/-- Four row pieces of heights 3, 1, 1, 2 stacked: row `k` of column `q`. -/
theorem cat4_apply (A : S3x4096.Idx → α) (B C : S1x4096.Idx → α) (D : S2x4096.Idx → α)
    (h : Shape.Concatenates [S3x4096, S1x4096, S1x4096, S2x4096] S7x4096 0) (q : Fin 4096) (k : Fin 7) :
    concatenate S7x4096 0 [⟨S3x4096, A⟩, ⟨S1x4096, B⟩, ⟨S1x4096, C⟩, ⟨S2x4096, D⟩] h (ix2 k q)
      = (![A (ix2 0 q), A (ix2 1 q), A (ix2 2 q), B (ix2 0 q), C (ix2 0 q), D (ix2 0 q), D (ix2 1 q)] : Fin 7 → α) k := by
  have hi : ∀ {n : Nat} (c : Fin n) (c' : Fin 7) (b : Fin 2), (b.cast (rfl : (2 : Nat) = 2)) ≠ (0 : Fin 2) →
      ((ix2 c q) b).val = ((ix2 c' q) (b.cast rfl)).val := fun c c' b hb => by
    match b, hb with
    | ⟨0, _⟩, hb => exact absurd (Fin.ext rfl) hb
    | ⟨1, _⟩, _ => rfl
  have key := concatenate_apply_piece (0 : Fin S7x4096.rank)
    [⟨S3x4096, A⟩, ⟨S1x4096, B⟩, ⟨S1x4096, C⟩, ⟨S2x4096, D⟩] h
  match k with
  | ⟨0, _⟩ => exact key (ix2 ⟨0, by omega⟩ q) 0 (by simp) S3x4096 A rfl rfl 0 (by rfl) (ix2 0 q) (hi _ _) (by rfl)
  | ⟨1, _⟩ => exact key (ix2 ⟨1, by omega⟩ q) 0 (by simp) S3x4096 A rfl rfl 0 (by rfl) (ix2 1 q) (hi _ _) (by rfl)
  | ⟨2, _⟩ => exact key (ix2 ⟨2, by omega⟩ q) 0 (by simp) S3x4096 A rfl rfl 0 (by rfl) (ix2 2 q) (hi _ _) (by rfl)
  | ⟨3, _⟩ => exact key (ix2 ⟨3, by omega⟩ q) 1 (by simp) S1x4096 B rfl rfl 3 (by rfl) (ix2 0 q) (hi _ _) (by rfl)
  | ⟨4, _⟩ => exact key (ix2 ⟨4, by omega⟩ q) 2 (by simp) S1x4096 C rfl rfl 4 (by rfl) (ix2 0 q) (hi _ _) (by rfl)
  | ⟨5, _⟩ => exact key (ix2 ⟨5, by omega⟩ q) 3 (by simp) S2x4096 D rfl rfl 5 (by rfl) (ix2 0 q) (hi _ _) (by rfl)
  | ⟨6, _⟩ => exact key (ix2 ⟨6, by omega⟩ q) 3 (by simp) S2x4096 D rfl rfl 5 (by rfl) (ix2 1 q) (hi _ _) (by rfl)
  | ⟨n + 7, hn⟩ => exact absurd hn (by omega)

end Cat

/-! ## The seven-term contraction read at an index -/

theorem lhs7_0 (i : S2048x4096.Idx) (c : dot_S2048x7_S7x4096_S2048x4096_1_0_0_1_n_n.contr.Idx) :
    (dot_S2048x7_S7x4096_S2048x4096_1_0_0_1_n_n.lhsIdx i c 0).val = (i 0).val := by
  unfold DotDims.lhsIdx
  rw [dif_neg (show ¬(0 : Fin S2048x7.rank) ∈ dot_S2048x7_S7x4096_S2048x4096_1_0_0_1_n_n.lhsBatch by decide),
    dif_pos (show (0 : Fin S2048x7.rank) ∈ dot_S2048x7_S7x4096_S2048x4096_1_0_0_1_n_n.lhsNonContracting by decide)]
  rfl
theorem lhs7_1 (i : S2048x4096.Idx) (c : dot_S2048x7_S7x4096_S2048x4096_1_0_0_1_n_n.contr.Idx) :
    (dot_S2048x7_S7x4096_S2048x4096_1_0_0_1_n_n.lhsIdx i c 1).val = (c ⟨0, by decide⟩).val :=
  dot_S2048x7_S7x4096_S2048x4096_1_0_0_1_n_n.lhsIdx_val_of_single rfl i c
theorem rhs7_0 (i : S2048x4096.Idx) (c : dot_S2048x7_S7x4096_S2048x4096_1_0_0_1_n_n.contr.Idx) :
    (dot_S2048x7_S7x4096_S2048x4096_1_0_0_1_n_n.rhsIdx i c 0).val = (c ⟨0, by decide⟩).val :=
  dot_S2048x7_S7x4096_S2048x4096_1_0_0_1_n_n.rhsIdx_val_of_single rfl i c
theorem rhs7_1 (i : S2048x4096.Idx) (c : dot_S2048x7_S7x4096_S2048x4096_1_0_0_1_n_n.contr.Idx) :
    (dot_S2048x7_S7x4096_S2048x4096_1_0_0_1_n_n.rhsIdx i c 1).val = (i 1).val := by
  unfold DotDims.rhsIdx
  rw [dif_neg (show ¬(1 : Fin S7x4096.rank) ∈ dot_S2048x7_S7x4096_S2048x4096_1_0_0_1_n_n.rhsBatch by decide),
    dif_pos (show (1 : Fin S7x4096.rank) ∈ dot_S2048x7_S7x4096_S2048x4096_1_0_0_1_n_n.rhsNonContracting by decide)]
  rfl

theorem matmul7_apply (L : FVec Ideal S2048x7 .bf16) (R : FVec Ideal S7x4096 .bf16) (p : Fin 2048) (q : Fin 4096) :
    matmul dot_S2048x7_S7x4096_S2048x4096_1_0_0_1_n_n none L R (constant S2048x4096 .f32 0x00000000#32) (ix2 p q)
      = ∑ k : Fin 7, L (ix2 p k) * R (ix2 k q) := by
  simp only [matmul]
  rw [Ideal.matmul_constant_zero_apply,
    ← Equiv.sum_comp (contrEquiv1 dot_S2048x7_S7x4096_S2048x4096_1_0_0_1_n_n 7 rfl rfl).symm]
  refine Finset.sum_congr rfl fun k _ => ?_
  have hk := contrEquiv1_symm_val dot_S2048x7_S7x4096_S2048x4096_1_0_0_1_n_n 7 rfl rfl k
  have el : dot_S2048x7_S7x4096_S2048x4096_1_0_0_1_n_n.lhsIdx (ix2 p q)
      ((contrEquiv1 dot_S2048x7_S7x4096_S2048x4096_1_0_0_1_n_n 7 rfl rfl).symm k) = ix2 p k :=
    funext fun a => Fin.ext (by
      match a with
      | ⟨0, _⟩ => exact lhs7_0 _ _
      | ⟨1, _⟩ => exact (lhs7_1 _ _).trans hk)
  have er : dot_S2048x7_S7x4096_S2048x4096_1_0_0_1_n_n.rhsIdx (ix2 p q)
      ((contrEquiv1 dot_S2048x7_S7x4096_S2048x4096_1_0_0_1_n_n 7 rfl rfl).symm k) = ix2 k q :=
    funext fun a => Fin.ext (by
      match a with
      | ⟨0, _⟩ => exact (rhs7_0 _ _).trans hk
      | ⟨1, _⟩ => exact rhs7_1 _ _)
  rw [el, er]

/-! ## The squared norms read at an index -/

theorem rowsq_apply (v1 : FVec Ideal S2048x3 .f32) (p : Fin 2048) (u : Fin 1) :
    shapeCast S2048x1 (multiReduction .add [1] S2048 (mulf v1 v1) 0x00000000#32 reduces_S2048x3_S2048 (.inl rfl) rfl)
        shapeCasts_S2048_S2048x1 (ix2 p u)
      = ∑ k : Fin 3, v1 (ix2 p k) * v1 (ix2 p k) := by
  rw [shapeCast_apply _ _ _ (ix1 p) (by
    have hu : u.val = 0 := by omega
    rw [Shape.rowMajor_val_one, Shape.rowMajor_val_two]
    show p.val = p.val * 1 + u.val
    omega)]
  refine (Ideal.multiReduction_add_single _ _ reduces_S2048x3_S2048 _ _ _).trans ?_
  refine Finset.sum_congr rfl fun k _ => ?_
  have e : reduces_S2048x3_S2048.lift (ix1 p) k = ix2 p k := funext fun a => Fin.ext (by
    match a with
    | ⟨0, _⟩ => rfl
    | ⟨1, _⟩ => rfl)
  rw [e]
  rfl

theorem colsq_apply (v3 : FVec Ideal S3x4096 .f32) (q : Fin 4096) (u : Fin 1) :
    shapeCast S1x4096 (multiReduction .add [0] S4096 (mulf v3 v3) 0x00000000#32 reduces_S3x4096_S4096 (.inl rfl) rfl)
        shapeCasts_S4096_S1x4096 (ix2 u q)
      = ∑ k : Fin 3, v3 (ix2 k q) * v3 (ix2 k q) := by
  rw [shapeCast_a_1a_apply]
  refine (Ideal.multiReduction_add_single _ _ reduces_S3x4096_S4096 _ _ _).trans ?_
  refine Finset.sum_congr rfl fun k _ => ?_
  have e : reduces_S3x4096_S4096.lift (ix1 q) k = ix2 k q := funext fun a => Fin.ext (by
    match a with
    | ⟨0, _⟩ => rfl
    | ⟨1, _⟩ => rfl)
  rw [e]
  rfl

/-! ## The matrix of augmented inner products at an entry -/

theorem pay6_apply (x0 : Vec Ideal S1x2048x3 .f32) (x1 : Vec Ideal S1x3x4096 .f32) (p : Fin 2048) (q : Fin 4096) :
    k0_pay6 (F := Ideal) x0 x1 (ix2 p q) = dk (fun k => x0 (ix3 0 p k)) (fun k => x1 (ix3 0 k q)) := by
  unfold k0_pay6
  refine (matmul7_apply _ _ p q).trans ?_
  unfold dk
  refine Finset.sum_congr rfl fun k _ => ?_
  have hV1 : ∀ k : Fin 3, shapeCast S2048x3 x0 shapeCasts_S1x2048x3_S2048x3 (ix2 p k) = x0 (ix3 0 p k) :=
    fun k => shapeCast_1ab_ab_apply _ _ _ _
  have hV3 : ∀ k : Fin 3, shapeCast S3x4096 x1 shapeCasts_S1x3x4096_S3x4096 (ix2 k q) = x1 (ix3 0 k q) :=
    fun k => shapeCast_1ab_ab_apply _ _ _ _
  generalize shapeCast S2048x3 x0 shapeCasts_S1x2048x3_S2048x3 = V1 at hV1 ⊢
  generalize shapeCast S3x4096 x1 shapeCasts_S1x3x4096_S3x4096 = V3 at hV3 ⊢
  refine congrArg₂ (· * ·) ((cat5_apply _ _ _ _ _ _ p k).trans ?_) ((cat4_apply _ _ _ _ _ q k).trans ?_)
  · match k with
    | ⟨0, _⟩ =>
      show Ideal.ofBits .f32 0xC0000000#32 * V1 (ix2 p 0) = ((-2 : ℝ) : EReal) * x0 (ix3 0 p 0)
      rw [w_negtwo, hV1]
    | ⟨1, _⟩ =>
      show Ideal.ofBits .f32 0xC0000000#32 * V1 (ix2 p 1) = ((-2 : ℝ) : EReal) * x0 (ix3 0 p 1)
      rw [w_negtwo, hV1]
    | ⟨2, _⟩ =>
      show Ideal.ofBits .f32 0xC0000000#32 * V1 (ix2 p 2) = ((-2 : ℝ) : EReal) * x0 (ix3 0 p 2)
      rw [w_negtwo, hV1]
    | ⟨3, _⟩ => exact w_one_bf16
    | ⟨4, _⟩ => exact w_one_bf16
    | ⟨5, _⟩ =>
      refine (rowsq_apply V1 p 0).trans ?_
      simp only [hV1]
      rfl
    | ⟨6, _⟩ =>
      refine congrArg₂ (· - ·) ((rowsq_apply V1 p 0).trans ?_) ((rowsq_apply V1 p 0).trans ?_) <;> simp only [hV1]
    | ⟨n + 7, hn⟩ => exact absurd hn (by omega)
  · match k with
    | ⟨0, _⟩ => exact hV3 0
    | ⟨1, _⟩ => exact hV3 1
    | ⟨2, _⟩ => exact hV3 2
    | ⟨3, _⟩ =>
      refine (colsq_apply V3 q 0).trans ?_
      simp only [hV3]
      rfl
    | ⟨4, _⟩ =>
      refine congrArg₂ (· - ·) ((colsq_apply V3 q 0).trans ?_) ((colsq_apply V3 q 0).trans ?_) <;> simp only [hV3]
    | ⟨5, _⟩ => exact w_one_bf16
    | ⟨6, _⟩ => exact w_one_bf16
    | ⟨n + 7, hn⟩ => exact absurd hn (by omega)

/-! ## Minimum reductions -/

/-- The fold of `min` from `⊤` over every index is the infimum. -/
theorem fold_min_top {ι : Type} [Fintype ι] (f : ι → EReal) :
    (Finset.univ : Finset ι).fold min ⊤ f = ⨅ i, f i :=
  eq_of_forall_le_iff fun c => by
    rw [Finset.le_fold_min, le_iInf_iff]
    exact ⟨fun h i => h.2 i (Finset.mem_univ _), fun h => ⟨le_top, fun i _ => h i⟩⟩

/-- A minimum reduction over one axis, from `+∞`, is the infimum over that axis's coordinates. -/
theorem multiReduction_minimumf_single {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [w_inf, fold_min_top]
  rfl

/-- The minimum of row `p` of a `[2048, 4096]` matrix. -/
theorem rowmin_apply (M : FVec Ideal S2048x4096 .f32) (p : Fin 2048) :
    multiReduction .minimumf [1] S2048 M 0x7F800000#32 reduces_S2048x4096_S2048 (.inl rfl) rfl (ix1 p)
      = ⨅ q : Fin 4096, M (ix2 p q) := by
  refine (multiReduction_minimumf_single M reduces_S2048x4096_S2048 _ _ _).trans ?_
  refine iInf_congr fun q : Fin 4096 => ?_
  exact congrArg M (funext fun a => Fin.ext (by
    match a with
    | ⟨0, _⟩ => rfl
    | ⟨1, _⟩ => rfl))

/-- Row `g * 32 + r` written by its block `g` and its residue `r` split as `(r / 8, r % 8)`. -/
def blk (g : Fin 64) (r : Fin 32) : Fin 2048 := ⟨g.val * 32 + r.val / 8 * 8 + r.val % 8, by omega⟩

/-- The infimum over the 32 residues of the infima over the 64 blocks is the infimum over all 2048 rows. -/
theorem iInf_blocks (f : Fin 2048 → EReal) : (⨅ r : Fin 32, ⨅ g : Fin 64, f (blk g r)) = ⨅ p : Fin 2048, f p := by
  refine eq_of_forall_le_iff fun c => ?_
  simp only [le_iInf_iff]
  constructor
  · intro h p
    have hp := h ⟨p.val % 32, Nat.mod_lt _ (by decide)⟩ ⟨p.val / 32, by omega⟩
    have e : blk ⟨p.val / 32, by omega⟩ ⟨p.val % 32, Nat.mod_lt _ (by decide)⟩ = p := Fin.ext (by
      show p.val / 32 * 32 + p.val % 32 / 8 * 8 + p.val % 32 % 8 = p.val
      omega)
    rw [e] at hp
    exact hp
  · intro h r g
    exact h _

/-- The column minimum taken in two stages — over the 64 blocks of 32 rows, then over the 32 residues — is the
    minimum of the whole column. -/
theorem colmin_apply (M : FVec Ideal S2048x4096 .f32) (q : Fin 4096) :
    shapeCast S1x4096
        (multiReduction .minimumf [0] S4096
          (shapeCast S32x4096
            (multiReduction .minimumf [0] S4x8x4096 (shapeCast S64x4x8x4096 M shapeCasts_S2048x4096_S64x4x8x4096)
              0x7F800000#32 reduces_S64x4x8x4096_S4x8x4096 (.inl rfl) rfl)
            shapeCasts_S4x8x4096_S32x4096)
          0x7F800000#32 reduces_S32x4096_S4096 (.inl rfl) rfl)
        shapeCasts_S4096_S1x4096 (ix2 0 q)
      = ⨅ p : Fin 2048, M (ix2 p q) := by
  rw [shapeCast_a_1a_apply]
  refine (multiReduction_minimumf_single _ reduces_S32x4096_S4096 _ _ _).trans ?_
  refine Eq.trans (iInf_congr fun r : Fin 32 => ?_) (iInf_blocks fun p => M (ix2 p q))
  refine (shapeCast_apply _ _ _ (ix3 (⟨r.val / 8, by omega⟩ : Fin 4) (⟨r.val % 8, by omega⟩ : Fin 8) q) (by
    rw [Shape.rowMajor_val_three, Shape.rowMajor_val_two]
    show (r.val / 8 * 8 + r.val % 8) * 4096 + q.val = r.val * 4096 + q.val
    omega)).trans ?_
  refine (multiReduction_minimumf_single _ reduces_S64x4x8x4096_S4x8x4096 _ _ _).trans ?_
  refine iInf_congr fun g : Fin 64 => ?_
  exact shapeCast_apply _ _ _ (ix2 (blk g r) q) (by
    rw [Shape.rowMajor_val_two, Shape.rowMajor_val_four]
    show (g.val * 32 + r.val / 8 * 8 + r.val % 8) * 4096 + q.val
      = ((g.val * 4 + r.val / 8) * 8 + r.val % 8) * 4096 + q.val
    omega)

/-! ## The two outputs of the step: the column minima and the sum of the roots of the clamped row minima -/

theorem pay7_apply (x0 : Vec Ideal S1x2048x3 .f32) (x1 : Vec Ideal S1x3x4096 .f32) (q : Fin 4096) :
    k0_pay7 (F := Ideal) x0 x1 (ix2 0 q) = ⨅ p : Fin 2048, k0_pay6 (F := Ideal) x0 x1 (ix2 p q) := by
  unfold k0_pay7
  exact colmin_apply _ q

/-- The root of the clamp at zero, read at an index. -/
theorem sqrt_max_zero_apply {s : Shape} (X : FVec Ideal s .f32) (i : s.Idx) :
    sqrt (maximumf X (broadcast s (Scalar.ofBits .f32 0x00000000#32))) i = Ideal.sqrt (max (X i) 0) := by
  show Ideal.sqrt (max (X i) (Ideal.ofBits .f32 0x00000000#32)) = _
  rw [Ideal.ofBits_zero_f32]

theorem pay8_eq (x0 : Vec Ideal S1x2048x3 .f32) (x1 : Vec Ideal S1x3x4096 .f32) :
    k0_pay8 (F := Ideal) x0 x1
      = ∑ p : Fin 2048, Ideal.sqrt (max (⨅ q : Fin 4096, k0_pay6 (F := Ideal) x0 x1 (ix2 p q)) 0) := by
  unfold k0_pay8
  generalize k0_pay6 (F := Ideal) x0 x1 = M
  unfold extractAt
  refine (shapeCast_apply _ _ _ (ix1 (0 : Fin 1)) (by rfl)).trans ?_
  refine (Ideal.multiReduction_add_total _ _ _ (by decide) _ _ _).trans ?_
  rw [sum_idx1n1]
  refine Finset.sum_congr rfl fun p _ => ?_
  rw [shapeCast_ab_1ab_apply]
  refine (sqrt_max_zero_apply _ _).trans ?_
  refine congrArg (fun t => Ideal.sqrt (max t 0)) ?_
  refine (shapeCast_apply _ _ _ (ix1 p) (by
    rw [Shape.rowMajor_val_one, Shape.rowMajor_val_two]
    show p.val = p.val * 1 + 0
    omega)).trans ?_
  exact rowmin_apply M p

end Cert.KernelIdeal.PayValue

end
-- ==== Proof.Invariant.lean ====
import proofs.«145149_g19164144075464_cont_8to1_1702_15_alg».proof.Proof.Pieces
import proofs.«145149_g19164144075464_cont_8to1_1702_15_alg».proof.Proof.Blocks
import proofs.«145149_g19164144075464_cont_8to1_1702_15_alg».proof.Proof.PayValue
import proofs.«145149_g19164144075464_cont_8to1_1702_15_alg».proof.Proof.ChamferSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.PayValue Cert.Chamfer

variable (m : (ℓ : Loc nD τ sig) → Buf (Elt Ideal) ℓ) (ρ : Dev nD → PrngReg)

/-- The first cloud, as launched. -/
abbrev X (c : Dev nD) : Cloud := m ((c : Thread nD τ).loc main_arg0)
/-- The second cloud, as launched. -/
abbrev Y (c : Dev nD) : Cloud := m ((c : Thread nD τ).loc main_arg1)

/-- The batch grid point `n` works on. -/
def batchOf (n : ℕ) : Fin 4 := ⟨n / 2 % 4, Nat.mod_lt _ (by decide)⟩
/-- The row block grid point `n` works on. -/
def blockOf (n : ℕ) : Fin 2 := ⟨n % 2, Nat.mod_lt _ (by decide)⟩

/-- The matrix of augmented inner products at point `t`: row `p`, column `q` is the squared distance (before the
    clamp) of point `2048 (t % 2) + p` of the first cloud and point `q` of the second, in batch `t / 2`. -/
theorem pay6_blk (c : Dev nD) (t : Fin cfg0.N) (p : Fin 2048) (q : Fin 4096) :
    k0_pay6 (F := Ideal) (iblk m c 0 t) (iblk m c 1 t) (ix2 p q)
      = dk (pt (X m c) (batchOf t.val) (rowOf (blockOf t.val) p)) (pt (Y m c) (batchOf t.val) q) := by
  have hN : t.val < 8 := lt_of_lt_of_eq t.isLt (show cfg0.N = 8 from N_0)
  have hβ : (batchOf t.val).val = t.val / 2 := by show t.val / 2 % 4 = t.val / 2; omega
  rw [pay6_apply]
  congr 1
  · funext k
    exact iblk0_apply m c t p k (batchOf t.val) (rowOf (blockOf t.val) p) hβ rfl
  · funext k
    exact iblk1_apply m c t k q (batchOf t.val) hβ

/-- The block's row part at point `t`. -/
theorem pay8_blk (c : Dev nD) (t : Fin cfg0.N) :
    k0_pay8 (F := Ideal) (iblk m c 0 t) (iblk m c 1 t) = rowPart (X m c) (Y m c) (batchOf t.val) (blockOf t.val) := by
  rw [pay8_eq]
  unfold rowPart
  refine Finset.sum_congr rfl fun p _ => ?_
  exact congrArg (fun z => Ideal.sqrt (max z 0)) (iInf_congr fun q => pay6_blk m c t p q)

/-- The block's column minima at point `t`. -/
theorem pay7_blk (c : Dev nD) (t : Fin cfg0.N) (q : Fin 4096) :
    k0_pay7 (F := Ideal) (iblk m c 0 t) (iblk m c 1 t) (ix2 0 q) = colBlk (X m c) (Y m c) (batchOf t.val) (blockOf t.val) q := by
  rw [pay7_apply]
  unfold colBlk
  exact iInf_congr fun p => pay6_blk m c t p q

/-- What the running total and the carried row hold after point `n`: the total is the sum of the steps so far;
    the carried row is the first block's column minima after an even point, and the minimum of the two blocks'
    column minima after an odd one. -/
theorem outsAt_inv (c : Dev nD) : ∀ (n : ℕ) (h : n < cfg0.N),
    (outsAt0 m c n h).1 (ix2 0 0) = ∑ s ∈ Finset.range (n + 1), contrib (X m c) (Y m c) s
    ∧ ∀ q : Fin 4096, (outsAt0 m c n h).2 (ix2 0 q)
        = if n % 2 = 0 then colBlk (X m c) (Y m c) (batchOf n) 0 q
          else min (colBlk (X m c) (Y m c) (batchOf n) 0 q) (colBlk (X m c) (Y m c) (batchOf n) 1 q)
  | 0, h => by
    have e := outsAt0_A m c ⟨0, h⟩ rfl (by show ¬(0 : ℕ) % 2 = 1; decide) rfl (by show ¬(0 : ℕ) % 2 = 1; decide)
    constructor
    · rw [show outsAt0 m c 0 h = _ from e]
      dsimp only
      rw [out_A, pay4_apply, pay3_apply, zero_add, pay8_blk, Finset.sum_range_one]
      rfl
    · intro q
      rw [show outsAt0 m c 0 h = _ from e]
      dsimp only
      rw [scratch_A, pay1_apply, pay7_blk, if_pos rfl]
      rfl
  | n + 1, h => by
    have hN : n + 1 < 8 := lt_of_lt_of_eq h (show cfg0.N = 8 from N_0)
    obtain ⟨ih1, ih2⟩ := outsAt_inv c n (Nat.lt_of_succ_lt h)
    by_cases hpar : (n + 1) % 2 = 0
    · have h1 : ¬(n + 1) % 2 = 1 := by omega
      have h2 : ¬(n + 1) % 8 = 0 := by omega
      have e := outsAt0_C m c ⟨n + 1, h⟩ hpar h1 h2 h1
      have hb : blockOf (n + 1) = 0 := Fin.ext hpar
      constructor
      · rw [show outsAt0 m c (n + 1) h = _ from e]
        dsimp only
        rw [out_C, pay4_apply, pay8_blk, Finset.sum_range_succ _ (n + 1)]
        refine congrArg₂ (· + ·) ih1 ?_
        unfold contrib
        rw [if_pos hpar]
        show rowPart _ _ (batchOf (n + 1)) (blockOf (n + 1)) = rowPart _ _ (batchOf (n + 1)) 0
        rw [hb]
      · intro q
        rw [show outsAt0 m c (n + 1) h = _ from e]
        dsimp only
        rw [scratch_C, pay1_apply, pay7_blk, if_pos hpar]
        show colBlk _ _ (batchOf (n + 1)) (blockOf (n + 1)) q = _
        rw [hb]
    · have h1 : (n + 1) % 2 = 1 := by omega
      have h2 : ¬(n + 1) % 8 = 0 := by omega
      have e := outsAt0_B m c ⟨n + 1, h⟩ hpar h1 h2 h1
      have hb : blockOf (n + 1) = 1 := Fin.ext h1
      have hβ : batchOf n = batchOf (n + 1) := Fin.ext (by show n / 2 % 4 = (n + 1) / 2 % 4; omega)
      have hn0 : n % 2 = 0 := by omega
      have hrow : ∀ q : Fin 4096, k0_pay2 (F := Ideal) (k0_pay7 (iblk m c 0 ⟨n + 1, h⟩) (iblk m c 1 ⟨n + 1, h⟩))
            (outsAt0 m c n (Nat.lt_of_succ_lt h)).2 (ix2 0 q)
          = min (colBlk (X m c) (Y m c) (batchOf (n + 1)) 0 q) (colBlk (X m c) (Y m c) (batchOf (n + 1)) 1 q) := by
        intro q
        rw [pay2_apply, ih2 q, if_pos hn0, pay7_blk, hβ]
        show min _ (colBlk _ _ (batchOf (n + 1)) (blockOf (n + 1)) q) = _
        rw [hb]
      constructor
      · rw [show outsAt0 m c (n + 1) h = _ from e]
        dsimp only
        rw [out_B, pay5_apply, pay4_apply, pay8_blk, Finset.sum_range_succ _ (n + 1), add_assoc]
        refine congrArg₂ (· + ·) ih1 ?_
        unfold contrib
        rw [if_neg hpar]
        show rowPart _ _ (batchOf (n + 1)) (blockOf (n + 1)) + _ = rowPart _ _ (batchOf (n + 1)) 1 + colPart _ _ (batchOf (n + 1))
        rw [hb]
        refine congrArg₂ (· + ·) rfl ?_
        unfold colPart
        refine Finset.sum_congr rfl fun q _ => ?_
        exact congrArg (fun z => Ideal.sqrt (max z 0)) (hrow q)
      · intro q
        rw [show outsAt0 m c (n + 1) h = _ from e]
        dsimp only
        rw [scratch_B, if_neg hpar]
        exact hrow q

end Cert.KernelIdeal.KVal
end
-- ==== Proof.KernelRun.lean ====
import proofs.«145149_g19164144075464_cont_8to1_1702_15_alg».proof.Proof.Invariant
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Chamfer

variable (m : (ℓ : Loc nD τ sig) → Buf (Elt Ideal) ℓ) (ρ : Dev nD → PrngReg)

/-- The one-entry result array at the running total after the eight points. -/
abbrev total (c : Dev nD) : Buf (Elt Ideal) ((c : Thread nD τ).loc main_v1) := fun _ => kerTotal (X m c) (Y m c)

/-- After the last point the output's staging buffer holds the running total. -/
theorem outs_last (c : Dev nD) (h : 7 < cfg0.N) : (outsAt0 m c 7 h).1 = total m c := by
  funext i
  have e0 : i 0 = (0 : Fin 1) := Fin.ext (Nat.lt_one_iff.mp (i 0).isLt)
  have e1 : i 1 = (0 : Fin 1) := Fin.ext (Nat.lt_one_iff.mp (i 1).isLt)
  have ei : i = ix2 (0 : Fin 1) (0 : Fin 1) := by
    rw [eq_ix2 i]; exact congrArg₂ ix2 e0 e1
  rw [ei]
  exact (outsAt_inv m c 7 h).1

/-- The one write-back, at the last point, writes it: the block is the whole one-entry array. -/
theorem flushed_eq (c : Dev nD) (t : Fin cfg0.N) (hf : (cfg0.win 2).flush t = true) :
    (dats m 0 c).flushed 2 t = ((cfg0.win 2).blk t).view.read (Elt Ideal) (total m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  rw [show outsAt0 m c t0_7.val t0_7.isLt = outsAt0 m c 7 (by rw [hN]; decide) from rfl, outs_last]
  have hz' : (fun a => win0_2.index t0_7 a * main_v1.ty.shape.size a) = fun _ => 0 := funext fun a => by fin_cases a <;> decide
  exact (Memref.read_access_unit_zero (Elt Ideal) main_v1 hz' (fun a => by rw [congrFun hz' a]; simp) (total m c)).symm

/-- So the result array ends holding the running total. -/
theorem final_total (c : Dev nD) : (dats m 0 c).arrAt 2 cfg0.N = total m c :=
  (dats m 0 c).arrAt_eq_of_cover 2 (total m c) (flushed_eq m c) fun i =>
    ⟨t0_7, (flush0_2 t0_7).mpr rfl, by
      show i ∈ ((View.whole main_v1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The lines after the region: the total reshaped to a scalar and divided by 32768. -/
theorem result_eq (c : Dev nD) :
    Pipeline.afterTail₀ cfgs (dats m) 0 (V0 m) [hostOps1] c main_v3 = fun _ => kerLoss (X m c) (Y m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = total m c :=
    (Pipeline.withArrays_arr spec0 launch0.win.arr_inj c _ _ 2).trans (final_total m c)
  rw [e]
  funext j
  show Ideal.div (kerTotal (X m c) (Y m c)) (Ideal.ofBits .f32 0x47000000#32) = _
  rw [w_32768]
  rfl

/-- The idealized kernel's run: the scalar result ends at the total over 32768, the two clouds unchanged. -/
theorem run : θ_run defs (onTc (τ := τ) (main (F := Ideal))) ⟨m, fun _ => 0, ρ⟩ fun r => ∀ c : Dev nD,
      r.2.mem ((c.tc : Thread nD τ).loc main_v3) = (fun _ => kerLoss (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KVal
end
-- ==== Proof.lean ====
/-
  The two programs compute one number: the symmetric nearest-neighbour (Chamfer) loss of two batches of point
  clouds, half the sum of the two mean distances from each point to the nearest point of the other cloud.

  The reference forms every squared distance `|a|² + |b|² - 2 a·b`, clamps it at zero, takes the minimum along each
  axis, and averages the square roots.  The kernel forms the same squared distance as ONE inner product of seven-term
  augmented vectors `(-2a, 1, 1, |a|², |a|² - |a|²) · (b, |b|², |b|² - |b|², 1, 1)`, takes row minima per block of
  2048 rows and column minima block by block (carried across the two blocks of a batch), clamps AFTER the minimum,
  and accumulates every square root into one running total, divided at the end by `2 · 4 · 4096`.

  Over the extended reals, for real-valued inputs: the augmented inner product is the squared distance (the
  difference terms vanish and the factor 2 distributes: this is where finiteness of the inputs is used); clamping
  commutes with a minimum; a minimum over 4096 rows is the minimum of the two blocks' minima; a sum may be taken in
  any order; and every summand is non-negative, so the common divisor distributes over the sum of the two totals.
-/
import proofs.«145149_g19164144075464_cont_8to1_1702_15_alg».proof.Defs
import proofs.«145149_g19164144075464_cont_8to1_1702_15_alg».proof.Proof.Gen.Kernel
import proofs.«145149_g19164144075464_cont_8to1_1702_15_alg».proof.Proof.Gen.Kernel.Frame
import proofs.«145149_g19164144075464_cont_8to1_1702_15_alg».proof.Proof.Gen.KernelIdeal
import proofs.«145149_g19164144075464_cont_8to1_1702_15_alg».proof.Proof.Gen.KernelIdeal.Frame
import proofs.«145149_g19164144075464_cont_8to1_1702_15_alg».proof.Proof.Gen.ReferenceIdeal
import proofs.«145149_g19164144075464_cont_8to1_1702_15_alg».proof.Proof.Gen.ReferenceIdeal.Run
import proofs.«145149_g19164144075464_cont_8to1_1702_15_alg».proof.Proof.Gen.ReferenceIdeal.Read
import proofs.«145149_g19164144075464_cont_8to1_1702_15_alg».proof.Proof.Gen.Pre_finite_inputs
import proofs.«145149_g19164144075464_cont_8to1_1702_15_alg».proof.Proof.ChamferSpec
import proofs.«145149_g19164144075464_cont_8to1_1702_15_alg».proof.Proof.ChamferLaws
import proofs.«145149_g19164144075464_cont_8to1_1702_15_alg».proof.Proof.RefSide
import proofs.«145149_g19164144075464_cont_8to1_1702_15_alg».proof.Proof.Finite
import proofs.«145149_g19164144075464_cont_8to1_1702_15_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: narrowing `|a|²` and `|b|²` to bf16 and widening back is the identity on
    the extended reals. -/
theorem preserves : Cert.preserves_Kernel_KernelIdeal :=
  ⟨IdealRules.truncf_extf.statement Cert.KernelIdeal.S2048x1 .f32 .bf16,
   IdealRules.truncf_extf.statement Cert.KernelIdeal.S1x4096 .f32 .bf16⟩

/-- From clouds that agree, the kernel's scalar ends at the running total over 32768 and the reference's at half the
    sum of the two means; for finite inputs these are one extended real. -/
theorem algebraic : Cert.algebraic_KernelIdeal_ReferenceIdeal := by
  intro m ρ m' ρ' hpre hagree
  refine ⟨fun c => fun _ => Cert.Chamfer.kerLoss (Cert.KernelIdeal.KVal.X m c) (Cert.KernelIdeal.KVal.Y m c),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefSide.ref_value, (hagree c).1, (hagree c).2]
  obtain ⟨hx, hy⟩ := Cert.Finite.real_of_pre _ _ (hpre c)
  funext _
  exact (Cert.Chamfer.kerLoss_eq_refLoss _ _ hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
